-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x128 : Shape := ⟨2, ![2048, 128]⟩
abbrev S2048x1 : Shape := ⟨2, ![2048, 1]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16384x2048 .f32) (main_arg1 : FVec F S2048x128 .f32) (main_arg2 : FVec F S2048x1 .f32) (main_arg3 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16384x2048 : Shape := ⟨2, ![16384, 2048]⟩
abbrev S2048x128 : Shape := ⟨2, ![2048, 128]⟩
abbrev S2048x1 : Shape := ⟨2, ![2048, 1]⟩
abbrev S1 : Shape := ⟨1, ![1]⟩
abbrev S1x1 : Shape := ⟨2, ![1, 1]⟩
abbrev S16384x1 : Shape := ⟨2, ![16384, 1]⟩
abbrev S1024x2048 : Shape := ⟨2, ![1024, 2048]⟩
abbrev S1024x1 : Shape := ⟨2, ![1024, 1]⟩
abbrev S1024x128 : Shape := ⟨2, ![1024, 128]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x128, .f32⟩
  | .hbm, ⟨2, _⟩ => ⟨S2048x1, .f32⟩
  | .hbm, ⟨3, _⟩ => ⟨S1, .f32⟩
  | .hbm, ⟨4, _⟩ => ⟨S1x1, .f32⟩
  | .hbm, ⟨5, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x1, .f32⟩
  | .local _ .vmem, ⟨4, _⟩ => ⟨S1x1, .f32⟩
  | .local _ .vmem, ⟨5, _⟩ => ⟨S1024x1, .f32⟩
  | .local _ .vmem, ⟨6, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S1x1 : S1.ShapeCasts S1x1
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x128_S1024 : S1024x128.Reduces [1] S1024
  shapeCasts_S1024_S1024x1 : S1024.ShapeCasts S1024x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x2048_S2048x128_S1024x128_1_0_0_1_n_n_wf : DotDims.WF S1024x2048 S2048x128 S1024x128 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x128 : Shape := ⟨2, ![2048, 128]⟩
abbrev S2048x1 : Shape := ⟨2, ![2048, 1]⟩
abbrev S1 : Shape := ⟨1, ![1]⟩
abbrev S16384x1 : Shape := ⟨2, ![16384, 1]⟩
abbrev S1x1 : Shape := ⟨2, ![1, 1]⟩
abbrev S16384x128 : Shape := ⟨2, ![16384, 128]⟩
abbrev S_ : Shape := ⟨0, ![]⟩
abbrev S16384 : Shape := ⟨1, ![16384]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x128, .f32⟩
  | .hbm, ⟨2, _⟩ => ⟨S2048x1, .f32⟩
  | .hbm, ⟨3, _⟩ => ⟨S1, .f32⟩
  | .hbm, ⟨4, _⟩ => ⟨S16384x1, .f32⟩
  | .hbm, ⟨5, _⟩ => ⟨S1x1, .f32⟩
  | .hbm, ⟨6, _⟩ => ⟨S16384x1, .f32⟩
  | .hbm, ⟨7, _⟩ => ⟨S16384x1, .f32⟩
  | .hbm, ⟨8, _⟩ => ⟨S16384x128, .f32⟩
  | .hbm, ⟨9, _⟩ => ⟨S16384x128, .f32⟩
  | .hbm, ⟨10, _⟩ => ⟨S16384x2048, .f32⟩
  | .hbm, ⟨11, _⟩ => ⟨S2048x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x2048_S2048x1_S16384x1_1_0_0_1_n_n_wf : DotDims.WF S16384x2048 S2048x1 S16384x1 [1] [0] [0] [1] [] []
  dot_S16384x2048_S2048x128_S16384x128_1_0_0_1_n_n_wf : DotDims.WF S16384x2048 S2048x128 S16384x128 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf

class Facts : Prop extends Facts₀ where

variable [Facts]
-- ==== Proof.FmSpec.lean ====
/-
  The factorization-machine probability of one row.

  For a row r of a feature matrix x (any number of rows, 2048 features), a factor matrix k (2048 × 128),
  a column of linear weights w (2048 × 1) and a bias b, over the extended reals:

    linear r = Σ_f x[r,f] · w[f,0] + b
    cross r  = ½ · ( Σ_j ( (Σ_f x[r,f] · k[f,j])² − Σ_f x[r,f]² · k[f,j]² ) / 128 )
    score r  = linear r + cross r
    prob r   = 1 / (1 + e^(−score r))

  with ½ and 128 the values of their single-precision patterns (never evaluated: the same two words stand on
  both sides of the comparison this specification serves). The score of row r reads x only along row r, so a
  band of rows cut out of x has, row for row, the scores of x itself: that is what lets a computation that
  handles 1024 rows at a time be compared with one that handles all 16384 at once.
-/
import Idealize.ShloMosaic.PureOps.Ideal.Laws
import Idealize.ShloMosaic.Lib.ValueIdx

noncomputable section

open scoped BigOperators

namespace Cert.Fm

open Idealize.ShloMosaic Idealize.ShloMosaic.ValueIdx

/-- The score of row `r`: the linear term plus half the mean, over the 128 factors, of
    (square of the row's product with the factor) − (the squared row's product with the squared factor). -/
def score {n : ℕ} (x : (⟨2, ![n, 2048]⟩ : Shape).Idx → EReal) (k : (⟨2, ![2048, 128]⟩ : Shape).Idx → EReal)
    (w : (⟨2, ![2048, 1]⟩ : Shape).Idx → EReal) (b : EReal) (r : Fin n) : EReal :=
  ((∑ f : Fin 2048, x (ix2 r f) * w (ix2 f (0 : Fin 1))) + b)
    + Ideal.ofBits .f32 0x3F000000#32
      * Ideal.div
          (∑ j : Fin 128, ((∑ f : Fin 2048, x (ix2 r f) * k (ix2 f j)) * (∑ f : Fin 2048, x (ix2 r f) * k (ix2 f j))
            - ∑ f : Fin 2048, (x (ix2 r f) * x (ix2 r f)) * (k (ix2 f j) * k (ix2 f j))))
          (Ideal.ofBits .f32 0x43000000#32)

/-- The probability of row `r`: the logistic function of its score. -/
def prob {n : ℕ} (x : (⟨2, ![n, 2048]⟩ : Shape).Idx → EReal) (k : (⟨2, ![2048, 128]⟩ : Shape).Idx → EReal)
    (w : (⟨2, ![2048, 1]⟩ : Shape).Idx → EReal) (b : EReal) (r : Fin n) : EReal :=
  Ideal.logistic (score x k w b r)

/-- The score of a row depends on the feature matrix only through that row: two matrices (of any heights) that
    agree along row `r` of one and row `r'` of the other give those rows the same score. -/
theorem score_congr {n n' : ℕ} (x : (⟨2, ![n, 2048]⟩ : Shape).Idx → EReal) (x' : (⟨2, ![n', 2048]⟩ : Shape).Idx → EReal)
    (k : (⟨2, ![2048, 128]⟩ : Shape).Idx → EReal) (w : (⟨2, ![2048, 1]⟩ : Shape).Idx → EReal) (b : EReal)
    (r : Fin n) (r' : Fin n') (h : ∀ f : Fin 2048, x (ix2 r f) = x' (ix2 r' f)) :
    score x k w b r = score x' k w b r' := by
  unfold score
  simp only [h]

/-- So they give those rows the same probability. -/
theorem prob_congr {n n' : ℕ} (x : (⟨2, ![n, 2048]⟩ : Shape).Idx → EReal) (x' : (⟨2, ![n', 2048]⟩ : Shape).Idx → EReal)
    (k : (⟨2, ![2048, 128]⟩ : Shape).Idx → EReal) (w : (⟨2, ![2048, 1]⟩ : Shape).Idx → EReal) (b : EReal)
    (r : Fin n) (r' : Fin n') (h : ∀ f : Fin 2048, x (ix2 r f) = x' (ix2 r' f)) :
    prob x k w b r = prob x' k w b r' := by
  unfold prob
  rw [score_congr x x' k w b r r' h]

/-- All 16384 probabilities as a 16384 × 1 column, the bias read from its one-entry vector: entry (r, 0) is the
    probability of row `r`. -/
def probs (x : (⟨2, ![16384, 2048]⟩ : Shape).Idx → EReal) (k : (⟨2, ![2048, 128]⟩ : Shape).Idx → EReal)
    (w : (⟨2, ![2048, 1]⟩ : Shape).Idx → EReal) (b : (⟨1, ![1]⟩ : Shape).Idx → EReal) :
    (⟨2, ![16384, 1]⟩ : Shape).Idx → EReal :=
  fun i => prob x k w (b (ix1 (0 : Fin 1))) (i 0)

/-- The single-precision pattern of 1.0 is the number one. -/
theorem one_f32 : Ideal.ofBits .f32 0x3F800000#32 = (1 : EReal) := by
  simp [Ideal.ofBits, Ideal.ieee, -EReal.coe_mul]
  norm_num

/-- The logistic function spelt out with that pattern for its two ones: 1.0 / (1.0 + e^(−z)). -/
theorem logistic_spelt (z : EReal) :
    Ideal.div (Ideal.ofBits .f32 0x3F800000#32) (Ideal.ofBits .f32 0x3F800000#32 + Ideal.exp (-z)) = Ideal.logistic z := by
  rw [one_f32]
  rfl

end Cert.Fm

end
-- ==== Proof.FmReference.lean ====
/-
  The reference program computes the specification.

  Read one operation at a time, entry (r, 0) of the reference's result is
    1.0 / (1.0 + exp(−( (Σ_f x[r,f]·w[f,0] + b[0]) + ½ · ((0 + Σ_j ((x·k)[r,j]² − (x²·k²)[r,j])) / 128) )))
  where (x·k)[r,j] = Σ_f x[r,f]·k[f,j] and (x²·k²)[r,j] = Σ_f x[r,f]²·k[f,j]². The leading zero of the sum over
  the factors is the number zero, the two patterns of 1.0 are the number one, and what is left is the logistic
  function of the score of row r: the probability of the specification.
-/
import proofs.«152361_j19430432047273_1_alg».proof.Proof.Gen.ReferenceIdeal.Read
import proofs.«152361_j19430432047273_1_alg».proof.Proof.FmSpec

noncomputable section

open scoped BigOperators

namespace Cert.Fm.Reference

open Idealize.ShloMosaic Idealize.ShloMosaic.ValueIdx Cert.ReferenceIdeal Cert.ReferenceIdeal.Read

/-! The operand indices the reference's operations read, at an output entry given by its coordinates. -/

theorem linear_lhs (r : Fin 16384) (u : Fin 1) (f : Fin 2048) : lidx_main_v0 (ix2 r u) f = ix2 r f :=
  funext fun a => Fin.ext (by match a with | ⟨0, _⟩ => rfl | ⟨1, _⟩ => rfl)
theorem linear_rhs (r : Fin 16384) (u : Fin 1) (f : Fin 2048) : ridx_main_v0 (ix2 r u) f = ix2 f u :=
  funext fun a => Fin.ext (by match a with | ⟨0, _⟩ => rfl | ⟨1, _⟩ => rfl)
theorem bias_idx (r : Fin 16384) (u : Fin 1) : idx_main_v1 (idx_main_v2 (ix2 r u)) = ix1 (0 : Fin 1) :=
  funext fun a => Fin.ext (by match a with | ⟨0, _⟩ => rfl)
theorem factor_idx (r : Fin 16384) (u : Fin 1) (j : Fin 128) : idx_main_v10 (idx_main_v11 (ix2 r u)) j = ix2 r j :=
  funext fun a => Fin.ext (by match a with | ⟨0, _⟩ => rfl | ⟨1, _⟩ => rfl)
theorem product_lhs (r : Fin 16384) (j : Fin 128) (f : Fin 2048) : lidx_main_v4 (ix2 r j) f = ix2 r f :=
  funext fun a => Fin.ext (by match a with | ⟨0, _⟩ => rfl | ⟨1, _⟩ => rfl)
theorem product_rhs (r : Fin 16384) (j : Fin 128) (f : Fin 2048) : ridx_main_v4 (ix2 r j) f = ix2 f j :=
  funext fun a => Fin.ext (by match a with | ⟨0, _⟩ => rfl | ⟨1, _⟩ => rfl)
theorem squares_lhs (r : Fin 16384) (j : Fin 128) (f : Fin 2048) : lidx_main_v8 (ix2 r j) f = ix2 r f :=
  funext fun a => Fin.ext (by match a with | ⟨0, _⟩ => rfl | ⟨1, _⟩ => rfl)
theorem squares_rhs (r : Fin 16384) (j : Fin 128) (f : Fin 2048) : ridx_main_v8 (ix2 r j) f = ix2 f j :=
  funext fun a => Fin.ext (by match a with | ⟨0, _⟩ => rfl | ⟨1, _⟩ => rfl)

/-- The reference's last stage is the column of probabilities of the specification. -/
theorem result_eq (x : (⟨S16384x2048, .f32⟩ : BufTy).Contents (Elt Ideal)) (k : (⟨S2048x128, .f32⟩ : BufTy).Contents (Elt Ideal))
    (w : (⟨S2048x1, .f32⟩ : BufTy).Contents (Elt Ideal)) (b : (⟨S1, .f32⟩ : BufTy).Contents (Elt Ideal)) :
    val_main_v22 (F := Ideal) x k w b = probs x k w b := by
  funext i
  obtain ⟨r, u, rfl⟩ : ∃ (r : Fin 16384) (u : Fin 1), i = ix2 r u := ⟨i 0, i 1, eq_ix2 i⟩
  obtain rfl : u = 0 := Subsingleton.elim _ _
  simp only [val_main_v22_apply, val_main_v21_apply, val_main_cst_3_apply, val_main_v20_apply, val_main_v19_apply,
    val_main_cst_2_apply, val_main_v18_apply, val_main_v17_apply, val_main_v16_apply, val_main_v3_apply, val_main_v0_apply,
    val_main_v2_apply, val_main_v1_apply, val_main_v15_apply, val_main_v14_apply, val_main_cst_1_apply, val_main_v13_apply,
    val_main_v11_apply, val_main_v12_apply, val_main_cst_0_apply, val_main_v10_apply, val_main_cst_apply, val_main_v9_apply,
    val_main_v5_apply, val_main_v4_apply, val_main_v8_apply, val_main_v6_apply, val_main_v7_apply,
    linear_lhs, linear_rhs, bias_idx, factor_idx, product_lhs, product_rhs, squares_lhs, squares_rhs,
    Ideal.ofBits_def, Ideal.addf_def, Ideal.subf_def, Ideal.mulf_def, Ideal.hostDivf_def, Ideal.hostNegf_def, Ideal.negf_def,
    Ideal.hostUnary_exp_def, Ideal.ofBits_zero_f32, zero_add]
  exact Cert.Fm.logistic_spelt _

end Cert.Fm.Reference

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.LibUnitAxes.lean ====
/-
  Two kinds of general facts about arrays read at an index given by coordinates.

  Unit axes. A vector of `a` entries viewed as a `[1, 1, a]` array, and back, and an `[a, 1, b]` array viewed as
  `[a, b]`: the row-major position of an entry does not change, so each view reads the entry with the unit
  coordinates dropped or set to zero.

  Minima over one axis. Over the extended reals a minimum taken from +infinity over one axis of a two-axis array is
  the greatest lower bound of that row or column: a number lies below it exactly when it lies below every
  entry of the row or column. Stated in that form a minimum never has to be computed or reordered.
-/
import Idealize.ShloMosaic.Lib.Pipeline.Value
import Idealize.ShloMosaic.Lib.ValueIdx
import Idealize.ShloMosaic.PureOps.Ideal.Laws
import Idealize.ShloMosaic.PureOps.Reduce

namespace Cert.Lib.UnitAxes

open Idealize.ShloMosaic Idealize.ShloMosaic.ValueIdx

variable {α : Type}

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A `[1, 1, a]` array cast to `[a]` reads, at `i`, the array at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, 1, b]` array cast to `[a, b]` reads, at `(i, j)`, the array at `(i, 0, j)`. -/
theorem shapeCast_a1b_ab_apply {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The sum over the SECOND axis of an `[n0, n1]` array at row `p` is the sum of the row's entries. -/
theorem sum_axis1 {n0 n1 : ℕ} (v : FVec Ideal (⟨2, ![n0, n1]⟩ : Shape) .f32) (acc : BitVec 32)
    (h : (⟨2, ![n0, n1]⟩ : Shape).Reduces [1] ⟨1, ![n0]⟩) (hφ : FKind.Formats .f32)
    (hacc : acc = FKind.add.neutral .f32 hφ) (p : Fin n0) :
    multiReduction .add [1] ⟨1, ![n0]⟩ v acc h hφ hacc (ix1 p) = ∑ k : Fin n1, v (ix2 p k) :=
  (Ideal.multiReduction_add_single v acc h hφ hacc (ix1 p)).trans
    (Finset.sum_congr rfl fun k _ => congrArg v (funext fun c => Fin.ext (by fin_cases c <;> rfl)))

/-- The f32 pattern of +infinity is the top of the extended reals. -/
theorem inf_f32 : Ideal.ofBits .f32 0x7F800000#32 = (⊤ : EReal) := by simp [Ideal.ofBits, Ideal.ieee]

/-- A fold of `min` from the top over a whole finite type lies above exactly the common lower bounds of the family. -/
theorem le_fold_min_top {ι : Type} [Fintype ι] (f : ι → EReal) (b : EReal) (hb : b = ⊤) (a : EReal) :
    a ≤ (Finset.univ : Finset ι).fold min b f ↔ ∀ k, a ≤ f k := by
  subst hb
  rw [Finset.le_fold_min]
  exact ⟨fun h k => h.2 k (Finset.mem_univ k), fun h => ⟨le_top, fun k _ => h k⟩⟩

/-- The minimum over the SECOND axis of an `[n0, n1]` array, taken from +infinity, at row `p`: a number lies below it
    exactly when it lies below every entry of the row. -/
theorem le_min_axis1 {n0 n1 : ℕ} (v : FVec Ideal (⟨2, ![n0, n1]⟩ : Shape) .f32) (acc : BitVec 32)
    (hinf : Ideal.ofBits .f32 acc = ⊤) (h : (⟨2, ![n0, n1]⟩ : Shape).Reduces [1] ⟨1, ![n0]⟩) (hφ : FKind.Formats .f32)
    (hacc : acc = FKind.minimumf.neutral .f32 hφ) (p : Fin n0) (a : EReal) :
    a ≤ multiReduction .minimumf [1] ⟨1, ![n0]⟩ v acc h hφ hacc (ix1 p) ↔ ∀ q : Fin n1, a ≤ v (ix2 p q) := by
  rw [multiReduction_minimumf_eq_fold, h.fold_filter_drop_single]
  have hl : ∀ k : Fin n1, h.lift (ix1 p) k = ix2 p k := fun k => funext fun c => Fin.ext (by fin_cases c <;> rfl)
  refine (le_fold_min_top (ι := Fin n1) (fun k => v (h.lift (ix1 p) k)) _ hinf a).trans ?_
  exact forall_congr' fun k => by rw [hl]

/-- The minimum over the FIRST axis of an `[n0, n1]` array, taken from +infinity, at column `q`: a number lies below it
    exactly when it lies below every entry of the column. -/
theorem le_min_axis0 {n0 n1 : ℕ} (v : FVec Ideal (⟨2, ![n0, n1]⟩ : Shape) .f32) (acc : BitVec 32)
    (hinf : Ideal.ofBits .f32 acc = ⊤) (h : (⟨2, ![n0, n1]⟩ : Shape).Reduces [0] ⟨1, ![n1]⟩) (hφ : FKind.Formats .f32)
    (hacc : acc = FKind.minimumf.neutral .f32 hφ) (q : Fin n1) (a : EReal) :
    a ≤ multiReduction .minimumf [0] ⟨1, ![n1]⟩ v acc h hφ hacc (ix1 q) ↔ ∀ p : Fin n0, a ≤ v (ix2 p q) := by
  rw [multiReduction_minimumf_eq_fold, h.fold_filter_drop_single]
  have hl : ∀ k : Fin n0, h.lift (ix1 q) k = ix2 k q := fun k => funext fun c => Fin.ext (by fin_cases c <;> rfl)
  refine (le_fold_min_top (ι := Fin n0) (fun k => v (h.lift (ix1 q) k)) _ hinf a).trans ?_
  exact forall_congr' fun k => by rw [hl]

end Cert.Lib.UnitAxes
-- ==== Proof.FmBlock.lean ====
/-
  What the kernel body computes for one band of 1024 rows.

  The body is handed a band xb of 1024 rows of the feature matrix, the whole factor matrix k, the whole column of
  linear weights w, and the bias as a 1 × 1 array. Entry (p, 0) of what it stores is

    logistic( (Σ_f xb[p,f]·w[f,0] + bias) + ½ · ( Σ_j ( (xb·k)[p,j]² − (xb²·k²)[p,j] ) / 128 ) )

  — the three matrix products started from zero are plain sums over the 2048 features, the sum over the 128
  factors keeps its reduced axis as a column of height 1024, the 1 × 1 bias is repeated down that column —
  which is the specification's probability of row p of the band.
-/
import proofs.«152361_j19430432047273_1_alg».proof.Proof.Gen.KernelIdeal.Skeleton
import proofs.«152361_j19430432047273_1_alg».proof.Proof.FmSpec
import proofs.«152361_j19430432047273_1_alg».proof.Proof.LibPlainProduct
import proofs.«152361_j19430432047273_1_alg».proof.Proof.LibKeepdims
import proofs.«152361_j19430432047273_1_alg».proof.Proof.LibUnitAxes
import Idealize.ShloMosaic.Lib.Pipeline.Value

noncomputable section

open scoped BigOperators

namespace Cert.Fm.Block

open Idealize.ShloMosaic Idealize.ShloMosaic.ValueIdx Cert.KernelIdeal Cert.KernelIdeal.Gen

/-- The sum over the 128 factors, kept as a column, read at row `p`: for products `x·k` and `y·l` (each started
    from zero) it is Σ_j ( (Σ_f x[p,f]·k[f,j])² − Σ_f y[p,f]·l[f,j] ). -/
theorem cross_apply (x y : FVec Ideal S1024x2048 .f32) (k l : FVec Ideal S2048x128 .f32)
    (hr : S1024x128.Reduces [1] S1024) (hc : S1024.ShapeCasts S1024x1) (p : Fin 1024) (u : Fin 1) :
    shapeCast S1024x1
        (multiReduction (F := Ideal) .add [1] S1024
          (subf
            (mulf
              (matmul dot_S1024x2048_S2048x128_S1024x128_1_0_0_1_n_n (some .fp32) x k (constant (F := Ideal) S1024x128 .f32 0x00000000#32))
              (matmul dot_S1024x2048_S2048x128_S1024x128_1_0_0_1_n_n (some .fp32) x k (constant (F := Ideal) S1024x128 .f32 0x00000000#32)))
            (matmul dot_S1024x2048_S2048x128_S1024x128_1_0_0_1_n_n (some .fp32) y l (constant (F := Ideal) S1024x128 .f32 0x00000000#32)))
          0x00000000#32 hr (.inl rfl) rfl)
        hc (ix2 p u)
      = ∑ j : Fin 128, ((∑ f : Fin 2048, x (ix2 p f) * k (ix2 f j)) * (∑ f : Fin 2048, x (ix2 p f) * k (ix2 f j))
          - ∑ f : Fin 2048, y (ix2 p f) * l (ix2 f j)) := by
  refine (Cert.Rbf.Keepdims.shapeCast_a_a1_apply _ hc p u).trans ?_
  refine (Cert.Lib.UnitAxes.sum_axis1 _ 0x00000000#32 hr (.inl rfl) rfl p).trans ?_
  refine Finset.sum_congr rfl fun j _ => ?_
  have e1 := PlainProduct.matmul_zero_apply dot_S1024x2048_S2048x128_S1024x128_1_0_0_1_n_n rfl (some .fp32) x k p j
  have e2 := PlainProduct.matmul_zero_apply dot_S1024x2048_S2048x128_S1024x128_1_0_0_1_n_n rfl (some .fp32) y l p j
  exact congrArg₂ (· - ·) (congrArg₂ (· * ·) e1 e1) e2

/-- The 1 × 1 bias repeated down a column of height 1024 reads, at every row, its one entry. -/
theorem bias_apply (b : FVec Ideal S1x1 .f32) (hs : S1x1.ShapeCasts S1x1) (hb : S1x1.Broadcasts S1024x1) (p : Fin 1024) (u : Fin 1) :
    broadcastTo S1024x1 (shapeCast S1x1 b hs) hb (ix2 p u) = b (ix2 (0 : Fin 1) (0 : Fin 1)) := by
  rw [shapeCast_self]
  exact broadcastTo_apply b hb (ix2 p u) (ix2 (0 : Fin 1) (0 : Fin 1)) fun a => by
    match a with
    | ⟨0, _⟩ => rfl
    | ⟨1, _⟩ => rfl

/-- THE BODY'S STORED VALUE at `(p, u)`: the probability of row `p` of the band it was handed. -/
theorem stored_apply (xb : FVec Ideal S1024x2048 .f32) (k : FVec Ideal S2048x128 .f32) (w : FVec Ideal S2048x1 .f32)
    (b : FVec Ideal S1x1 .f32) (p : Fin 1024) (u : Fin 1) :
    k0_pay1 (F := Ideal) xb k w b (ix2 p u) = Cert.Fm.prob xb k w (b (ix2 (0 : Fin 1) (0 : Fin 1))) p := by
  obtain rfl : u = 0 := Subsingleton.elim _ _
  have hlin := PlainProduct.matmul_zero_apply dot_S1024x2048_S2048x1_S1024x1_1_0_0_1_n_n rfl (some .fp32) xb w p (0 : Fin 1)
  have hbias := bias_apply b shapeCasts_S1x1_S1x1 broadcasts_S1x1_S1024x1 p (0 : Fin 1)
  have hcross := cross_apply xb (mulf xb xb) k (mulf k k) reduces_S1024x128_S1024 shapeCasts_S1024_S1024x1 p (0 : Fin 1)
  exact congrArg Ideal.logistic
    (congrArg₂ (· + ·) (congrArg₂ (· + ·) hlin hbias)
      (congrArg (fun z => Ideal.ofBits .f32 0x3F000000#32 * Ideal.div z (Ideal.ofBits .f32 0x43000000#32)) hcross))

end Cert.Fm.Block

end
-- ==== Proof.FmArray.lean ====
/-
  From bands of 1024 rows to the whole column of 16384 probabilities.

  The kernel runs at 16 grid points. At point t it is handed rows 1024·t … 1024·t + 1023 of the feature matrix
  (all 2048 columns), and, at every point alike, the whole factor matrix, the whole column of linear weights and
  the 1 × 1 bias array; it writes back rows 1024·t … 1024·t + 1023 of the 16384 × 1 result. The bias array is
  the one-entry bias vector viewed as 1 × 1, so its one entry is the vector's.

  Row p of the band at point t is row 1024·t + p of the matrix, so by the band lemma what point t writes back is
  band t of the specification's column of probabilities. Row r of the result lies in the band of point r / 1024, so
  the 16 bands cover the result, and the array the run ends with is the specification's column.
-/
import proofs.«152361_j19430432047273_1_alg».proof.Proof.Gen.KernelIdeal.Value
import proofs.«152361_j19430432047273_1_alg».proof.Proof.FmBlock
import Idealize.ShloMosaic.Lib.StableHlo.Run
import Idealize.ShloMosaic.Lib.Pipeline.Value
import Idealize.ShloMosaic.Lib.ValueLayout

noncomputable section

namespace Cert.Fm.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One band against the whole matrix -/

/-- A one-entry vector viewed as a 1 × 1 array reads, at its one index, the vector's entry. -/
theorem bias_entry (bvec : (⟨1, ![1]⟩ : Shape).Idx → EReal) (h : (⟨1, ![1]⟩ : Shape).ShapeCasts ⟨2, ![1, 1]⟩)
    (j : (⟨2, ![1, 1]⟩ : Shape).Idx) : shapeCast ⟨2, ![1, 1]⟩ bvec h j = bvec (ix1 (0 : Fin 1)) := by
  obtain ⟨a, b, rfl⟩ : ∃ (a b : Fin 1), j = ix2 a b := ⟨j 0, j 1, eq_ix2 j⟩
  obtain rfl : b = 0 := Subsingleton.elim _ _
  exact shapeCast_a_1a_apply bvec h a (0 : Fin 1)

/-- THE BAND LEMMA. If row `p` of the band `xb` is row `i 0` of the matrix `X`, the band's factor matrix and weights
    are the whole ones, and the band's 1 × 1 bias holds the bias vector's entry, then what the body stores at `(p, u)`
    is entry `i` of the specification's column of probabilities. -/
theorem band_row (X : (⟨2, ![16384, 2048]⟩ : Shape).Idx → EReal) (K : (⟨2, ![2048, 128]⟩ : Shape).Idx → EReal)
    (W : (⟨2, ![2048, 1]⟩ : Shape).Idx → EReal) (bvec : (⟨1, ![1]⟩ : Shape).Idx → EReal)
    (xb : FVec Ideal S1024x2048 .f32) (kb : FVec Ideal S2048x128 .f32) (wb : FVec Ideal S2048x1 .f32) (bb : FVec Ideal S1x1 .f32)
    (p : Fin 1024) (u : Fin 1) (i : (⟨2, ![16384, 1]⟩ : Shape).Idx)
    (hx : ∀ f : Fin 2048, xb (ix2 p f) = X (ix2 (i 0) f)) (hk : kb = K) (hw : wb = W)
    (hb : bb (ix2 (0 : Fin 1) (0 : Fin 1)) = bvec (ix1 (0 : Fin 1))) :
    k0_pay1 (F := Ideal) xb kb wb bb (ix2 p u) = Cert.Fm.probs X K W bvec i := by
  subst hk hw
  rw [Cert.Fm.Block.stored_apply, hb]
  exact Cert.Fm.prob_congr xb X kb wb _ p (i 0) hx

/-! ## The windows' blocks at a grid point -/

theorem zero_offsets : (![0, 0] : Fin 2 → Nat) = fun _ => 0 := funext fun a => by fin_cases a <;> rfl

/-- The printed index maps, decided over the 16 grid points: the band of the feature matrix moves with the band of
    the result along the rows and stays at column block 0; the factor matrix, the weights and the bias stay at block
    (0, 0); the result's column block is 0. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every one of the 16 row bands of the result is some grid point's. -/
theorem index_onto : ∀ q : Fin 16, ∃ t : Fin cfg0.N, win0_4.index t = ![q.val, 0] :=
  (by decide +kernel : ∀ q : Fin 16, ∃ t : Fin grid0.N, win0_4.index t = ![q.val, 0])

/-- The bias window's array, as the region finds it, is the bias vector viewed as 1 × 1. -/
theorem bias_array (c : Dev nD) :
    (V m c main_v0 : S1x1.Idx → Elt Ideal .f32) = shapeCast S1x1 (m ((c : Thread nD τ).loc main_arg3)) shapeCasts_S1_S1x1 := by
  dsimp only [Gen.V, Gen.hostOps0]
  after_results
  rfl

/-! ## What a grid point writes back -/

/-- WHAT POINT `t` WRITES BACK is band `t` of the specification's column of probabilities of the argument arrays. -/
theorem flushed_eq (c : Dev nD) (t : Fin cfg0.N) :
    (dats m 0 c).flushed 4 t = ((cfg0.win 4).blk t).view.read (Elt Ideal)
      (Cert.Fm.probs (V m c main_arg0) (V m c main_arg1) (V m c main_arg2) (m ((c : Thread nD τ).loc main_arg3))) := by
  rw [Cert.KernelIdeal.Value.flushed4]
  unfold out0_4
  rw [View.canon_unit_zero zero_offsets]
  simp only [View.ld_unit_zero (S := S1024x2048) zero_offsets, View.ld_unit_zero (S := S2048x128) zero_offsets,
    View.ld_unit_zero (S := S2048x1) zero_offsets, View.ld_unit_zero (S := S1x1) zero_offsets]
  obtain ⟨e00, e01, e10, e11, e20, e21, e30, e31, e41⟩ := index_facts t
  funext y
  obtain ⟨p, u, rfl⟩ : ∃ (p : Fin 1024) (u : Fin 1), y = ix2 p u := ⟨y 0, y 1, eq_ix2 y⟩
  show k0_pay1 (F := Ideal) (iblk m c 0 t) (iblk m c 1 t) (iblk m c 2 t) (iblk m c 3 t) (ix2 p u)
    = Cert.Fm.probs (V m c main_arg0) (V m c main_arg1) (V m c main_arg2) (m ((c : Thread nD τ).loc main_arg3))
        (((cfg0.win 4).blk t).view.emb (ix2 p u))
  refine band_row _ _ _ _ _ _ _ _ p u _ ?_ ?_ ?_ ?_
  · intro f
    show V m c main_arg0 (((cfg0.win 0).blk t).view.emb (ix2 p f)) = V m c main_arg0 _
    refine congrArg _ (funext fun a => Fin.ext ?_)
    match a with
    | ⟨0, _⟩ =>
      show win0_0.index t (0 : Fin 2) * 1024 + 1 * p.val = win0_4.index t (0 : Fin 2) * 1024 + 1 * p.val
      omega
    | ⟨1, _⟩ =>
      show win0_0.index t (1 : Fin 2) * 2048 + 1 * f.val = f.val
      omega
  · funext z
    show V m c main_arg1 (((cfg0.win 1).blk t).view.emb z) = V m c main_arg1 z
    refine congrArg _ (funext fun a => Fin.ext ?_)
    match a with
    | ⟨0, _⟩ =>
      show win0_1.index t (0 : Fin 2) * 2048 + 1 * (z 0).val = (z 0).val
      omega
    | ⟨1, _⟩ =>
      show win0_1.index t (1 : Fin 2) * 128 + 1 * (z 1).val = (z 1).val
      omega
  · funext z
    show V m c main_arg2 (((cfg0.win 2).blk t).view.emb z) = V m c main_arg2 z
    refine congrArg _ (funext fun a => Fin.ext ?_)
    match a with
    | ⟨0, _⟩ =>
      show win0_2.index t (0 : Fin 2) * 2048 + 1 * (z 0).val = (z 0).val
      omega
    | ⟨1, _⟩ =>
      show win0_2.index t (1 : Fin 2) * 1 + 1 * (z 1).val = (z 1).val
      omega
  · show V m c main_v0 (((cfg0.win 3).blk t).view.emb (ix2 (0 : Fin 1) (0 : Fin 1))) = _
    rw [bias_array]
    exact bias_entry _ _ _

/-! ## The bands cover the result -/

/-- An index of the result is in point `t`'s band iff each coordinate is in the band's range on its axis. -/
theorem mem_band (t : Fin cfg0.N) (i : S16384x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v1).slice (win0_4.rect t)).set ↔ _
  rw [View.set_slice_whole, Rect.mem_set_unit]
  exact Iff.rfl

/-- Row `r` of the result is in the band of the point whose row block is `r / 1024`. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := index_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_band]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-! ## The array after the run, and the run -/

/-- THE RESULT ARRAY after the run is the specification's column of probabilities of the argument arrays as launched. -/
theorem final (c : Dev nD) : (dats m 0 c).arrAt 4 cfg0.N
    = Cert.Fm.probs (m ((c : Thread nD τ).loc main_arg0)) (m ((c : Thread nD τ).loc main_arg1))
        (m ((c : Thread nD τ).loc main_arg2)) (m ((c : Thread nD τ).loc main_arg3)) := by
  refine ((dats m 0 c).arrAt_eq_of_cover 4 _ (fun t _ => flushed_eq m c t) cover).trans ?_
  rw [V_main_arg0, V_main_arg1, V_main_arg2]

/-- The kernel's run: the result array ends at the specification's column, the arguments unchanged. -/
theorem run : θ_run defs (onTc (τ := τ) (main (F := Ideal))) ⟨m, fun _ => 0, ρ⟩ fun r => ∀ c : Dev nD,
      r.2.mem ((c : Thread nD τ).loc main_v1)
        = Cert.Fm.probs (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Fm.Array

end
-- ==== Proof.lean ====
/-
  A factorization machine's forward pass, computed 1024 rows at a time, against the same formula computed on all
  16384 rows at once.

  Both programs take a feature matrix x (16384 × 2048), a factor matrix k (2048 × 128), linear weights w (2048 × 1)
  and a one-entry bias b, and return for each row r the probability

    1 / (1 + e^(−s_r)),   s_r = (Σ_f x[r,f]·w[f,0] + b) + ½ · ( Σ_j ( (Σ_f x[r,f]·k[f,j])² − Σ_f x[r,f]²·k[f,j]² ) / 128 ).

  Over the extended reals, where every operation is the exact one, the kernel's matrix products started from zero
  and the reference's general dot products are the same plain sums over the 2048 features; the kernel's sum over
  the 128 factors and the reference's sum from an initial zero are the same sum; the kernel's logistic operation
  and the reference's 1 / (1 + exp(−s)) are the same function; and s_r reads x only along row r, so handling the
  rows in 16 bands of 1024 changes nothing. No step uses a law that fails at an infinity, so the finiteness of the
  inputs is never opened. The idealized kernel is the kernel's own text read over the extended reals (no rewrite
  was applied), so there is nothing to preserve beyond that.

  The specification is Proof/FmSpec.lean; that the reference computes it, Proof/FmReference.lean; that the kernel
  body computes it on a band, Proof/FmBlock.lean; that the bands make up the whole result, Proof/FmArray.lean.
-/
import proofs.«152361_j19430432047273_1_alg».proof.Defs
import proofs.«152361_j19430432047273_1_alg».proof.Proof.Gen.Kernel
import proofs.«152361_j19430432047273_1_alg».proof.Proof.Gen.Kernel.Skeleton
import proofs.«152361_j19430432047273_1_alg».proof.Proof.Gen.Kernel.Launch
import proofs.«152361_j19430432047273_1_alg».proof.Proof.Gen.Kernel.Points
import proofs.«152361_j19430432047273_1_alg».proof.Proof.Gen.Kernel.Frame
import proofs.«152361_j19430432047273_1_alg».proof.Proof.Gen.KernelIdeal
import proofs.«152361_j19430432047273_1_alg».proof.Proof.Gen.KernelIdeal.Skeleton
import proofs.«152361_j19430432047273_1_alg».proof.Proof.Gen.KernelIdeal.Launch
import proofs.«152361_j19430432047273_1_alg».proof.Proof.Gen.KernelIdeal.Points
import proofs.«152361_j19430432047273_1_alg».proof.Proof.Gen.KernelIdeal.Frame
import proofs.«152361_j19430432047273_1_alg».proof.Proof.Gen.ReferenceIdeal
import proofs.«152361_j19430432047273_1_alg».proof.Proof.Gen.KernelIdeal.Value
import proofs.«152361_j19430432047273_1_alg».proof.Proof.Gen.ReferenceIdeal.Run
import proofs.«152361_j19430432047273_1_alg».proof.Proof.Gen.ReferenceIdeal.Read
import proofs.«152361_j19430432047273_1_alg».proof.Proof.Gen.Pre_finite_inputs
import proofs.«152361_j19430432047273_1_alg».proof.Proof.FmReference
import proofs.«152361_j19430432047273_1_alg».proof.Proof.FmArray
import Idealize.ShloMosaic.Adequacy
import Idealize.ShloMosaic.Init

noncomputable section

namespace Cert.Proof

open Idealize.ShloMosaic Idealize.SL.Sem

/-- The kernel as printed runs, faults nowhere, and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the column of probabilities of those
    arguments: the kernel band by band, the reference in one piece. -/
theorem algebraic : Cert.algebraic_KernelIdeal_ReferenceIdeal := by
  intro m ρ m' ρ' _ hagree
  refine ⟨_, Cert.Fm.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Fm.Reference.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
